-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S256 : Shape := ⟨1, ![256]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256 : S_.BroadcastsInDim S256 (![] : Fin 0 → Fin S256.rank)
  reducesTo_S256_S_d0 : S256.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S256 .f32) (main_arg2 : IVec S4096x4096 32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S256 : Shape := ⟨1, ![256]⟩
abbrev S4096x4096 : Shape := ⟨2, ![4096, 4096]⟩
abbrev S4096 : Shape := ⟨1, ![4096]⟩
abbrev S_ : Shape := ⟨0, ![]⟩
abbrev S4096x4096x1 : Shape := ⟨3, ![4096, 4096, 1]⟩
abbrev S8192x4096 : Shape := ⟨2, ![8192, 4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 19
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S4096x4096, .i32⟩
  | .hbm, ⟨3, _⟩ => ⟨S4096, .f32⟩
  | .hbm, ⟨4, _⟩ => ⟨S256, .bf16⟩
  | .hbm, ⟨5, _⟩ => ⟨S_, .i32⟩
  | .hbm, ⟨6, _⟩ => ⟨S4096x4096, .i32⟩
  | .hbm, ⟨7, _⟩ => ⟨S4096x4096, .i1⟩
  | .hbm, ⟨8, _⟩ => ⟨S_, .i32⟩
  | .hbm, ⟨9, _⟩ => ⟨S4096x4096, .i32⟩
  | .hbm, ⟨10, _⟩ => ⟨S4096x4096, .i32⟩
  | .hbm, ⟨11, _⟩ => ⟨S4096x4096, .i32⟩
  | .hbm, ⟨12, _⟩ => ⟨S4096x4096x1, .i32⟩
  | .hbm, ⟨13, _⟩ => ⟨S4096x4096, .bf16⟩
  | .hbm, ⟨14, _⟩ => ⟨S8192x4096, .f32⟩
  | .hbm, ⟨15, _⟩ => ⟨S8192x4096, .bf16⟩
  | .hbm, ⟨16, _⟩ => ⟨S1x4096, .f32⟩
  | .hbm, ⟨17, _⟩ => ⟨S8192x4096, .f32⟩
  | .hbm, ⟨18, _⟩ => ⟨S4x2048x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  shapeCasts_S4x2048x4096_S8192x4096 : S4x2048x4096.ShapeCasts S8192x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  gather_S256_S4096x4096x1_S4096x4096_n_0_n_n_0_2_1_wf : GatherDims.WF S256 S4096x4096x1 S4096x4096 [] [0] [] [0] [] 2 ![1]
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v9) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S256 : Shape := ⟨1, ![256]⟩
abbrev S4096x4096 : Shape := ⟨2, ![4096, 4096]⟩
abbrev S4096 : Shape := ⟨1, ![4096]⟩
abbrev S_ : Shape := ⟨0, ![]⟩
abbrev S4096x4096x1 : Shape := ⟨3, ![4096, 4096, 1]⟩
abbrev S1x1x4096 : Shape := ⟨3, ![1, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S4096x4096, .i32⟩
  | .hbm, ⟨3, _⟩ => ⟨S4096, .f32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S4x2048x4096, .f32⟩
  | .hbm, ⟨14, _⟩ => ⟨S1x1x4096, .f32⟩
  | .hbm, ⟨15, _⟩ => ⟨S4x2048x4096, .f32⟩
  | .hbm, ⟨16, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S256_S4096x4096x1_S4096x4096_n_0_n_n_0_2_1_wf : GatherDims.WF S256 S4096x4096x1 S4096x4096 [] [0] [] [0] [] 2 ![1]
  dot_S4x2048x4096_S4096x4096_S4x2048x4096_2_1_01_0_n_n_wf : DotDims.WF S4x2048x4096 S4096x4096 S4x2048x4096 [2] [1] [0, 1] [0] [] []

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What the kernel body leaves behind, case by case, as values.

  The body keeps a running sum in a scratch block. At the first step of a reduction (case A) it stores the zero block,
  reads it back and adds the product of the two input blocks; at a later step (cases B and C) it adds the product to what
  the step before left; at the last step (case C) it also writes the running sum plus the bias row to the output block.
  Each statement below says that the stores a case performs, read back, are the body's arithmetic applied to the
  blocks the case loaded.
-/
import proofs.«182247_j51264729645536_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- Case B: the scratch ends at (what the step before left) + (the product of the two input blocks). -/
theorem scratch_B (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : ¬cond0_1 i)
    (x0 : Vec F S2048x512 .bf16) (x1 : Vec F S1024x512 .bf16) (x2 : Vec F S1x1024 .f32) (xs0 : Vec F S2048x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg7.read_unread, harg3.read_unread, harg4.read_unread,
    View.ld_unit_zero (S := S2048x1024) hz, View.ld_unit_zero (S := S2048x512) hz, View.ld_unit_zero (S := S1024x512) hz]

/-- Case C leaves the same in the scratch. -/
theorem scratch_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x512 .bf16) (x1 : Vec F S1024x512 .bf16) (x2 : Vec F S1x1024 .f32) (xs0 : Vec F S2048x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S2048x1024) hz]
  simp only [View.readAt_eq_ld, harg7.read_unread, harg3.read_unread, harg4.read_unread,
    View.ld_unit_zero (S := S2048x1024) hz, View.ld_unit_zero (S := S2048x512) hz, View.ld_unit_zero (S := S1024x512) hz]

/-- Case C writes to the output block the scratch's new contents plus the bias row, broadcast down the rows. -/
theorem out_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x512 .bf16) (x1 : Vec F S1024x512 .bf16) (x2 : Vec F S1x1024 .f32) (xs0 : Vec F S2048x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S2048x1024) hz, View.readCov_unit_zero (S := S2048x1024) _ hz]
  simp only [View.readAt_eq_ld, harg7.read_unread, harg3.read_unread, harg4.read_unread, harg5.read_unread,
    View.ld_unit_zero (S := S2048x1024) hz, View.ld_unit_zero (S := S2048x512) hz, View.ld_unit_zero (S := S1024x512) hz,
    View.ld_unit_zero (S := S1x1024) hz]

/-- Case A: the scratch ends at (the zero block) + (the product of the two input blocks). -/
theorem scratch_A (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond0_0 i) (hc1 : ¬cond0_1 i)
    (x0 : Vec F S2048x512 .bf16) (x1 : Vec F S1024x512 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, harg3.read_unread, harg4.read_unread,
    View.ld_unit_zero (S := S2048x512) hz, View.ld_unit_zero (S := S1024x512) hz]

end Cert.KernelIdeal.Pieces

end
-- ==== Proof.PayIdx.lean ====
/-
  The body's arithmetic at one entry, on the extended reals.

  The zero block is `0` everywhere. One accumulation step adds, at row `r` and column `q` of the block, the dot product
  over the 512 columns of row `r` of the rows' block and row `q` of the weights' block (both operands are contracted
  along their second axis). The last step adds the bias row's entry of column `q`.
-/
import proofs.«182247_j51264729645536_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PayIdx

open Idealize.ShloMosaic Idealize.ShloMosaic.TcCoe Idealize.SL.Sem Idealize.ShloMosaic.ValueIdx
open Cert.KernelIdeal Cert.KernelIdeal.Gen

/-- The zero block. -/
theorem zero_at (r : Fin 2048) (q : Fin 1024) : (k0_pay1 (F := Ideal)) (ix2 r q) = 0 := by
  unfold k0_pay1
  simp only [shapeCast_self]
  show Ideal.ofBits .f32 0x00000000#32 = 0
  exact Ideal.ofBits_zero_f32

/-- The product's operand indices: the output's row and the contraction coordinate on the left, -/
theorem lhs_row (i : S2048x1024.Idx) (p : dot_S2048x512_S1024x512_S2048x1024_1_1_0_0_n_n.contr.Idx) :
    (dot_S2048x512_S1024x512_S2048x1024_1_1_0_0_n_n.lhsIdx i p 0).val = (i 0).val := by
  unfold DotDims.lhsIdx
  rw [dif_neg (show ¬(0 : Fin S2048x512.rank) ∈ dot_S2048x512_S1024x512_S2048x1024_1_1_0_0_n_n.lhsBatch by decide),
    dif_pos (show (0 : Fin S2048x512.rank) ∈ dot_S2048x512_S1024x512_S2048x1024_1_1_0_0_n_n.lhsNonContracting by decide)]
  rfl
theorem lhs_contr (i : S2048x1024.Idx) (p : dot_S2048x512_S1024x512_S2048x1024_1_1_0_0_n_n.contr.Idx) :
    (dot_S2048x512_S1024x512_S2048x1024_1_1_0_0_n_n.lhsIdx i p 1).val = (p ⟨0, by decide⟩).val :=
  dot_S2048x512_S1024x512_S2048x1024_1_1_0_0_n_n.lhsIdx_val_of_single rfl i p
/-- the output's column and the contraction coordinate on the right. -/
theorem rhs_row (i : S2048x1024.Idx) (p : dot_S2048x512_S1024x512_S2048x1024_1_1_0_0_n_n.contr.Idx) :
    (dot_S2048x512_S1024x512_S2048x1024_1_1_0_0_n_n.rhsIdx i p 0).val = (i 1).val := by
  unfold DotDims.rhsIdx
  rw [dif_neg (show ¬(0 : Fin S1024x512.rank) ∈ dot_S2048x512_S1024x512_S2048x1024_1_1_0_0_n_n.rhsBatch by decide),
    dif_pos (show (0 : Fin S1024x512.rank) ∈ dot_S2048x512_S1024x512_S2048x1024_1_1_0_0_n_n.rhsNonContracting by decide)]
  rfl
theorem rhs_contr (i : S2048x1024.Idx) (p : dot_S2048x512_S1024x512_S2048x1024_1_1_0_0_n_n.contr.Idx) :
    (dot_S2048x512_S1024x512_S2048x1024_1_1_0_0_n_n.rhsIdx i p 1).val = (p ⟨0, by decide⟩).val :=
  dot_S2048x512_S1024x512_S2048x1024_1_1_0_0_n_n.rhsIdx_val_of_single rfl i p

/-- One accumulation step at an entry. -/
theorem step_at (acc : FVec Ideal S2048x1024 .f32) (x : FVec Ideal S2048x512 .bf16) (w : FVec Ideal S1024x512 .bf16)
    (r : Fin 2048) (q : Fin 1024) :
    k0_pay2 acc x w (ix2 r q) = acc (ix2 r q) + ∑ kk : Fin 512, x (ix2 r kk) * w (ix2 q kk) := by
  unfold k0_pay2
  simp only [shapeCast_self]
  rw [addf_apply]
  refine congrArg (acc (ix2 r q) + ·) ?_
  refine (Ideal.matmul_constant_zero_apply (φ₁ := .bf16) (φ₂ := .bf16) dot_S2048x512_S1024x512_S2048x1024_1_1_0_0_n_n none x w (ix2 r q)).trans ?_
  rw [← Equiv.sum_comp (contrEquiv1 dot_S2048x512_S1024x512_S2048x1024_1_1_0_0_n_n 512 rfl rfl).symm]
  refine Finset.sum_congr rfl fun kk _ => ?_
  have hk := contrEquiv1_symm_val dot_S2048x512_S1024x512_S2048x1024_1_1_0_0_n_n 512 rfl rfl kk
  have el : dot_S2048x512_S1024x512_S2048x1024_1_1_0_0_n_n.lhsIdx (ix2 r q)
      ((contrEquiv1 dot_S2048x512_S1024x512_S2048x1024_1_1_0_0_n_n 512 rfl rfl).symm kk) = ix2 r kk :=
    funext fun a => Fin.ext (by
      match a with
      | ⟨0, _⟩ => exact lhs_row _ _
      | ⟨1, _⟩ => exact (lhs_contr _ _).trans hk)
  have er : dot_S2048x512_S1024x512_S2048x1024_1_1_0_0_n_n.rhsIdx (ix2 r q)
      ((contrEquiv1 dot_S2048x512_S1024x512_S2048x1024_1_1_0_0_n_n 512 rfl rfl).symm kk) = ix2 q kk :=
    funext fun a => Fin.ext (by
      match a with
      | ⟨0, _⟩ => exact rhs_row _ _
      | ⟨1, _⟩ => exact (rhs_contr _ _).trans hk)
  rw [el, er]

/-- The last step's output at an entry. -/
theorem last_at (acc : FVec Ideal S2048x1024 .f32) (b : FVec Ideal S1x1024 .f32) (r : Fin 2048) (q : Fin 1024) :
    k0_pay3 acc b (ix2 r q) = acc (ix2 r q) + b (ix2 (0 : Fin 1) q) := by
  unfold k0_pay3
  simp only [shapeCast_self]
  rw [addf_apply]
  exact congrArg (acc (ix2 r q) + ·) (broadcastTo_1b_ab_apply b broadcasts_S1x1024_S2048x1024 r q)

end Cert.KernelIdeal.PayIdx

end
-- ==== Proof.Blocks.lean ====
/-
  The blocks the region's windows hand the body, read at an index.

  The grid is 4 × 4 × 8: point `t` is row tile `t / 32`, column tile `t / 8 mod 4` and contraction step `t mod 8`.
  The rows' window at `t` is rows `2048 (t / 32) …`, columns `512 (t mod 8) …` of the rows; the weights' window is rows
  `1024 (t / 8 mod 4) …`, columns `512 (t mod 8) …` of the weights; the bias' window is columns `1024 (t / 8 mod 4) …`
  of the bias row.
-/
import proofs.«182247_j51264729645536_2_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

theorem lt128 (t : Fin cfg0.N) : t.val < 128 := lt_of_lt_of_eq t.isLt (show cfg0.N = 128 from N_0)

theorem row_lt (t : Fin cfg0.N) (r : Fin 2048) : 2048 * (t.val / 32) + r.val < 8192 := by
  have := lt128 t; have := r.isLt; omega
theorem col_lt (t : Fin cfg0.N) (q : Fin 1024) : 1024 * (t.val / 8 % 4) + q.val < 4096 := by
  have := q.isLt; omega
theorem step_lt (t : Fin cfg0.N) (kk : Fin 512) : 512 * (t.val % 8) + kk.val < 4096 := by
  have := kk.isLt; omega

/-- Window 0's block index at point `t`: the row tile and the contraction step — decided over the grid. -/
theorem idx0 : ∀ t : Fin cfg0.N, win0_0.index t (0 : Fin 2) = t.val / 32 ∧ win0_0.index t (1 : Fin 2) = t.val % 8 :=
  (by decide +kernel : ∀ t : Fin grid0.N, win0_0.index t (0 : Fin 2) = t.val / 32 ∧ win0_0.index t (1 : Fin 2) = t.val % 8)

/-- Window 1's block index at point `t`: the column tile and the contraction step — decided over the grid. -/
theorem idx1 : ∀ t : Fin cfg0.N, win0_1.index t (0 : Fin 2) = t.val / 8 % 4 ∧ win0_1.index t (1 : Fin 2) = t.val % 8 :=
  (by decide +kernel : ∀ t : Fin grid0.N, win0_1.index t (0 : Fin 2) = t.val / 8 % 4 ∧ win0_1.index t (1 : Fin 2) = t.val % 8)

/-- Window 2's block index at point `t`: row 0 and the column tile — decided over the grid. -/
theorem idx2 : ∀ t : Fin cfg0.N, win0_2.index t (0 : Fin 2) = 0 ∧ win0_2.index t (1 : Fin 2) = t.val / 8 % 4 :=
  (by decide +kernel : ∀ t : Fin grid0.N, win0_2.index t (0 : Fin 2) = 0 ∧ win0_2.index t (1 : Fin 2) = t.val / 8 % 4)

/-- The rows' block at point `t`. -/
theorem rows_blk (c : Dev nD) (t : Fin cfg0.N) (r : Fin 2048) (kk : Fin 512) :
    (iblk m c 0 t : Vec F S2048x512 .bf16) (ix2 r kk)
      = (V m c main_v9 : Vec F S8192x4096 .bf16) (ix2 ⟨2048 * (t.val / 32) + r.val, row_lt t r⟩ ⟨512 * (t.val % 8) + kk.val, step_lt t kk⟩) := by
  have hi := idx0 t
  unfold iblk
  rw [View.read_apply]
  show V m c main_v9 _ = V m c main_v9 _
  refine congrArg _ (funext fun a => Fin.ext ?_)
  match a with
  | ⟨0, _⟩ => show win0_0.index t 0 * 2048 + 1 * r.val = 2048 * (t.val / 32) + r.val; rw [hi.1]; omega
  | ⟨1, _⟩ => show win0_0.index t 1 * 512 + 1 * kk.val = 512 * (t.val % 8) + kk.val; rw [hi.2]; omega

/-- The weights' block at point `t`. -/
theorem weights_blk (c : Dev nD) (t : Fin cfg0.N) (q : Fin 1024) (kk : Fin 512) :
    (iblk m c 1 t : Vec F S1024x512 .bf16) (ix2 q kk)
      = (V m c main_v7 : Vec F S4096x4096 .bf16) (ix2 ⟨1024 * (t.val / 8 % 4) + q.val, col_lt t q⟩ ⟨512 * (t.val % 8) + kk.val, step_lt t kk⟩) := by
  have hi := idx1 t
  unfold iblk
  rw [View.read_apply]
  show V m c main_v7 _ = V m c main_v7 _
  refine congrArg _ (funext fun a => Fin.ext ?_)
  match a with
  | ⟨0, _⟩ => show win0_1.index t 0 * 1024 + 1 * q.val = 1024 * (t.val / 8 % 4) + q.val; rw [hi.1]; omega
  | ⟨1, _⟩ => show win0_1.index t 1 * 512 + 1 * kk.val = 512 * (t.val % 8) + kk.val; rw [hi.2]; omega

/-- The bias' block at point `t`. -/
theorem bias_blk (c : Dev nD) (t : Fin cfg0.N) (q : Fin 1024) :
    (iblk m c 2 t : Vec F S1x1024 .f32) (ix2 (0 : Fin 1) q)
      = (V m c main_v10 : Vec F S1x4096 .f32) (ix2 (0 : Fin 1) ⟨1024 * (t.val / 8 % 4) + q.val, col_lt t q⟩) := by
  have hi := idx2 t
  unfold iblk
  rw [View.read_apply]
  show V m c main_v10 _ = V m c main_v10 _
  refine congrArg _ (funext fun a => Fin.ext ?_)
  match a with
  | ⟨0, _⟩ => show win0_2.index t 0 * 1 + 1 * (0 : Fin 1).val = (0 : Fin 1).val; rw [hi.1]; omega
  | ⟨1, _⟩ => show win0_2.index t 1 * 1024 + 1 * q.val = 1024 * (t.val / 8 % 4) + q.val; rw [hi.2]; omega

end Cert.KernelIdeal.Blocks

end
-- ==== Proof.LibBlockSum.lean ====
/-
  Sums over a range cut into equal blocks.

  The numbers below `A * B` are the numbers `B * t + r` with `t < A` and `r < B`, each once: a sum over them is the
  double sum over the block `t` and the position `r` inside the block. A sum over triples is the triple sum.
-/
import Mathlib.Algebra.BigOperators.Fin
import Mathlib.Logic.Equiv.Fin.Basic

open scoped BigOperators

namespace Cert.BlockSum

variable {M : Type*} [AddCommMonoid M]

/-- Position `r` of block `t` lies below `A * B`. -/
theorem blk_lt {A B : ℕ} (t : Fin A) (r : Fin B) : B * t.val + r.val < A * B :=
  calc B * t.val + r.val < B * t.val + B := Nat.add_lt_add_left r.isLt _
    _ = B * (t.val + 1) := (Nat.mul_succ _ _).symm
    _ ≤ B * A := Nat.mul_le_mul_left B t.isLt
    _ = A * B := Nat.mul_comm _ _

/-- A sum over the numbers below `N = A * B` is the double sum over blocks and positions. -/
theorem sum_fin_blocks {A B N : ℕ} (hN : N = A * B) (f : Fin N → M) :
    ∑ j, f j = ∑ t : Fin A, ∑ r : Fin B, f ⟨B * t.val + r.val, hN ▸ blk_lt t r⟩ := by
  subst hN
  rw [← Equiv.sum_comp finProdFinEquiv f, Fintype.sum_prod_type]
  refine Finset.sum_congr rfl fun t _ => Finset.sum_congr rfl fun r _ => congrArg f (Fin.ext ?_)
  show r.val + B * t.val = B * t.val + r.val
  exact Nat.add_comm _ _

/-- A sum over triples is the triple sum. -/
theorem sum_triple {α β γ : Type*} [Fintype α] [Fintype β] [Fintype γ] (f : α × β × γ → M) :
    ∑ q, f q = ∑ x, ∑ y, ∑ z, f (x, y, z) := by
  rw [Fintype.sum_prod_type]
  exact Finset.sum_congr rfl fun x _ => Fintype.sum_prod_type _

end Cert.BlockSum
-- ==== Proof.Spec.lean ====
/-
  The mathematics of a linear layer whose weight matrix is looked up in a small table.

  With `x` an array of rows, `w` the weight matrix (one row per output feature) and `b` the bias, the layer is
      y[r, o] = (Σ_d x[r, d] · w[o, d]) + b[o].
  A tiled evaluation cuts the contraction range `d < 4096` into 8 blocks of 512 and adds the blocks' partial dot
  products one after another to a zero start: `((0 + P₀) + P₁) + … + P₇`. On the extended reals addition is
  associative and commutative and `0` is neutral, so that chain is the sum over the whole range — no finiteness is
  needed. This module states the block terms over natural-number coordinates (total functions, so that no bound proof
  travels through an induction) and proves that law.
-/
import proofs.«182247_j51264729645536_2_alg».proof.Proof.LibBlockSum
import Idealize.ShloMosaic.Lib.ValueIdx

noncomputable section

open scoped BigOperators

namespace Cert.TableLinear

open Idealize.ShloMosaic Idealize.ShloMosaic.ValueIdx

/-- The rows `x` as a matrix [8192, 4096], the weights [4096, 4096], the bias as a row [1, 4096], the result [8192, 4096]. -/
abbrev SX : Shape := ⟨2, ![8192, 4096]⟩
abbrev SW : Shape := ⟨2, ![4096, 4096]⟩
abbrev SB : Shape := ⟨2, ![1, 4096]⟩
abbrev S3 : Shape := ⟨3, ![4, 2048, 4096]⟩
abbrev S1 : Shape := ⟨1, ![4096]⟩

/-- Entry `(a, d)` of a matrix read at natural coordinates (`0` outside the matrix: never used). -/
def atX (X : SX.Idx → EReal) (a d : ℕ) : EReal :=
  if h : a < 8192 ∧ d < 4096 then X (ix2 ⟨a, h.1⟩ ⟨d, h.2⟩) else 0
def atW (W : SW.Idx → EReal) (b d : ℕ) : EReal :=
  if h : b < 4096 ∧ d < 4096 then W (ix2 ⟨b, h.1⟩ ⟨d, h.2⟩) else 0

theorem atX_eq (X : SX.Idx → EReal) (a d : ℕ) (ha : a < 8192) (hd : d < 4096) :
    atX X a d = X (ix2 ⟨a, ha⟩ ⟨d, hd⟩) := dif_pos ⟨ha, hd⟩
theorem atW_eq (W : SW.Idx → EReal) (b d : ℕ) (hb : b < 4096) (hd : d < 4096) :
    atW W b d = W (ix2 ⟨b, hb⟩ ⟨d, hd⟩) := dif_pos ⟨hb, hd⟩

/-- Block `s` (columns `512 s … 512 s + 511`) of the dot product of row `a` of `X` with row `b` of `W`. -/
def blockDot (X : SX.Idx → EReal) (W : SW.Idx → EReal) (a b s : ℕ) : EReal :=
  ∑ kk : Fin 512, atX X a (512 * s + kk.val) * atW W b (512 * s + kk.val)

/-- The running sum after blocks `0 … k`, from a zero start. -/
def partialDot (X : SX.Idx → EReal) (W : SW.Idx → EReal) (a b k : ℕ) : EReal :=
  0 + ∑ s ∈ Finset.range (k + 1), blockDot X W a b s

theorem partialDot_zero (X : SX.Idx → EReal) (W : SW.Idx → EReal) (a b : ℕ) :
    partialDot X W a b 0 = 0 + blockDot X W a b 0 := by
  unfold partialDot; rw [Finset.sum_range_one]

theorem partialDot_succ (X : SX.Idx → EReal) (W : SW.Idx → EReal) (a b k : ℕ) :
    partialDot X W a b (k + 1) = partialDot X W a b k + blockDot X W a b (k + 1) := by
  unfold partialDot; rw [Finset.sum_range_succ _ (k + 1), add_assoc]

/-- All eight blocks: the dot product over the whole contraction range. -/
theorem partialDot_seven (X : SX.Idx → EReal) (W : SW.Idx → EReal) (a : Fin 8192) (b : Fin 4096) :
    partialDot X W a.val b.val 7 = ∑ d : Fin 4096, X (ix2 a d) * W (ix2 b d) := by
  unfold partialDot
  rw [zero_add, Finset.sum_range, Cert.BlockSum.sum_fin_blocks (A := 8) (B := 512) (N := 4096) rfl]
  refine Finset.sum_congr rfl fun s _ => ?_
  unfold blockDot
  refine Finset.sum_congr rfl fun kk _ => ?_
  have hs := s.isLt
  have hk := kk.isLt
  rw [atX_eq X a.val _ a.isLt (by omega), atW_eq W b.val _ b.isLt (by omega)]

/-- The tiled evaluation's result [8192, 4096]: the eight-block running sum, then the bias. -/
def tiled (X : SX.Idx → EReal) (W : SW.Idx → EReal) (B : SB.Idx → EReal) : SX.Idx → EReal := fun i =>
  partialDot X W (i 0).val (i 1).val 7 + B (ix2 (0 : Fin 1) (i 1))

/-- The layer on rows indexed by (batch, position): `(Σ_d x[b, s, d] · w[o, d]) + bias[o]`. -/
def layer (x : S3.Idx → EReal) (W : SW.Idx → EReal) (bias : S1.Idx → EReal) : S3.Idx → EReal := fun i =>
  (∑ d : Fin 4096, x (ix3 (i 0) (i 1) d) * W (ix2 (i 2) d)) + bias (ix1 (i 2))

/-- Row `2048 b + s` of the matrix form is row `(b, s)` of the batched form. -/
theorem row_lt (b : Fin 4) (s : Fin 2048) : 2048 * b.val + s.val < 8192 := by
  have := b.isLt; have := s.isLt; omega

/-- The tiled result, read at row `2048 b + s`, is the layer at `(b, s)`, when the matrix `X` is the batched `x` with
    its two leading axes merged and the bias row is the bias. -/
theorem tiled_eq_layer (x : S3.Idx → EReal) (X : SX.Idx → EReal) (W : SW.Idx → EReal) (B : SB.Idx → EReal)
    (bias : S1.Idx → EReal)
    (hX : ∀ (b : Fin 4) (s : Fin 2048) (d : Fin 4096), X (ix2 ⟨2048 * b.val + s.val, row_lt b s⟩ d) = x (ix3 b s d))
    (hB : ∀ o : Fin 4096, B (ix2 (0 : Fin 1) o) = bias (ix1 o))
    (b : Fin 4) (s : Fin 2048) (o : Fin 4096) :
    tiled X W B (ix2 ⟨2048 * b.val + s.val, row_lt b s⟩ o) = layer x W bias (ix3 b s o) := by
  unfold tiled layer
  show partialDot X W (2048 * b.val + s.val) o.val 7 + B (ix2 (0 : Fin 1) o) = _
  rw [partialDot_seven X W ⟨2048 * b.val + s.val, row_lt b s⟩ o, hB o]
  refine congrArg (· + bias (ix1 o)) (Finset.sum_congr rfl fun d _ => ?_)
  rw [hX b s d]

end Cert.TableLinear

end
-- ==== Proof.Accum.lean ====
/-
  What the scratch block and the output block hold after each grid point.

  Grid point `n` is row tile `n / 32`, column tile `n / 8 mod 4` and contraction step `n mod 8`. By induction on the
  point, the scratch after point `n` holds, at row `r` and column `q` of the tile, the running sum of the first
  `n mod 8 + 1` block products of row `2048 (n / 32) + r` of the rows with row `1024 (n / 8 mod 4) + q` of the
  weights: a point with `n mod 8 = 0` starts the sum from zero, every other point adds its block product to what the
  point before left (same tile, one step earlier). At a point with `n mod 8 = 7` the output block is that full sum plus
  the bias entry of the column: the tile of the tiled result.
-/
import proofs.«182247_j51264729645536_2_alg».proof.Proof.Pieces
import proofs.«182247_j51264729645536_2_alg».proof.Proof.PayIdx
import proofs.«182247_j51264729645536_2_alg».proof.Proof.Blocks
import proofs.«182247_j51264729645536_2_alg».proof.Proof.Spec

noncomputable section

open scoped BigOperators

namespace Cert.KernelIdeal.Accum

open Idealize.ShloMosaic Idealize.ShloMosaic.TcCoe Idealize.SL.Sem Idealize.ShloMosaic.ValueIdx
open Cert.KernelIdeal Cert.KernelIdeal.Gen Cert.TableLinear

variable (m : (ℓ : Loc nD τ sig) → Buf (Elt Ideal) ℓ)

/-- The three arrays the region reads: the rows, the weights, the bias row. -/
abbrev rows (c : Dev nD) : SX.Idx → EReal := V m c main_v9
abbrev weights (c : Dev nD) : SW.Idx → EReal := V m c main_v7
abbrev biasRow (c : Dev nD) : SB.Idx → EReal := V m c main_v10

/-- The two input blocks at point `t`, as vectors of the block shapes. -/
abbrev rowsBlk (c : Dev nD) (t : Fin cfg0.N) : FVec Ideal S2048x512 .bf16 := iblk m c 0 t
abbrev weightsBlk (c : Dev nD) (t : Fin cfg0.N) : FVec Ideal S1024x512 .bf16 := iblk m c 1 t
abbrev biasBlk (c : Dev nD) (t : Fin cfg0.N) : FVec Ideal S1x1024 .f32 := iblk m c 2 t

/-- The product of the two input blocks at point `t`, at an entry, is the block term of the point's step. -/
theorem prod_at (c : Dev nD) (t : Fin cfg0.N) (r : Fin 2048) (q : Fin 1024) :
    ∑ kk : Fin 512, rowsBlk m c t (ix2 r kk) * weightsBlk m c t (ix2 q kk)
      = blockDot (rows m c) (weights m c) (2048 * (t.val / 32) + r.val) (1024 * (t.val / 8 % 4) + q.val) (t.val % 8) := by
  unfold blockDot
  refine Finset.sum_congr rfl fun kk _ => ?_
  have hx : rowsBlk m c t (ix2 r kk) = atX (rows m c) (2048 * (t.val / 32) + r.val) (512 * (t.val % 8) + kk.val) :=
    (Blocks.rows_blk m c t r kk).trans (atX_eq (rows m c) _ _ (Blocks.row_lt t r) (Blocks.step_lt t kk)).symm
  have hw : weightsBlk m c t (ix2 q kk) = atW (weights m c) (1024 * (t.val / 8 % 4) + q.val) (512 * (t.val % 8) + kk.val) :=
    (Blocks.weights_blk m c t q kk).trans (atW_eq (weights m c) _ _ (Blocks.col_lt t q) (Blocks.step_lt t kk)).symm
  rw [hx, hw]

/-- One accumulation step at point `t`, at an entry: what was there plus the point's block term. -/
theorem step_value (c : Dev nD) (t : Fin cfg0.N) (acc : FVec Ideal S2048x1024 .f32) (r : Fin 2048) (q : Fin 1024) :
    k0_pay2 acc (rowsBlk m c t) (weightsBlk m c t) (ix2 r q)
      = acc (ix2 r q) + blockDot (rows m c) (weights m c) (2048 * (t.val / 32) + r.val) (1024 * (t.val / 8 % 4) + q.val) (t.val % 8) :=
  (PayIdx.step_at acc (rowsBlk m c t) (weightsBlk m c t) r q).trans (congrArg (acc (ix2 r q) + ·) (prod_at m c t r q))

/-- A first step at point `t`: the block term after a zero start. -/
theorem first_value (c : Dev nD) (t : Fin cfg0.N) (r : Fin 2048) (q : Fin 1024) :
    k0_pay2 (F := Ideal) (k0_pay1 (F := Ideal)) (rowsBlk m c t) (weightsBlk m c t) (ix2 r q)
      = 0 + blockDot (rows m c) (weights m c) (2048 * (t.val / 32) + r.val) (1024 * (t.val / 8 % 4) + q.val) (t.val % 8) := by
  rw [step_value m c t _ r q, PayIdx.zero_at]

/-- THE RUNNING SUM: the scratch after point `n`. -/
theorem scratch_at (c : Dev nD) : ∀ (n : ℕ) (h : n < cfg0.N) (r : Fin 2048) (q : Fin 1024),
    (outsAt0 m c n h).2 (ix2 r q)
      = partialDot (rows m c) (weights m c) (2048 * (n / 32) + r.val) (1024 * (n / 8 % 4) + q.val) (n % 8)
  | 0, h, r, q => by
    rw [outsAt0_A m c ⟨0, h⟩ rfl (by show ¬(0 % 8 = 7); decide)]
    dsimp only
    rw [Pieces.scratch_A]
    exact (first_value m c ⟨0, h⟩ r q).trans (partialDot_zero _ _ _ _).symm
  | n + 1, h, r, q => by
    have hN : cfg0.N = 128 := N_0
    by_cases h0 : (n + 1) % 8 = 0
    · rw [outsAt0_A m c ⟨n + 1, h⟩ h0 (by dsimp only; omega)]
      dsimp only
      rw [Pieces.scratch_A]
      refine (first_value m c ⟨n + 1, h⟩ r q).trans ?_
      dsimp only
      rw [h0]
      exact (partialDot_zero _ _ _ _).symm
    · have ih := scratch_at c n (Nat.lt_of_succ_lt h) r q
      have e1 : (n + 1) / 32 = n / 32 := by omega
      have e2 : (n + 1) / 8 % 4 = n / 8 % 4 := by omega
      have e3 : (n + 1) % 8 = n % 8 + 1 := by omega
      by_cases h1 : (n + 1) % 8 = 7
      · rw [outsAt0_C m c ⟨n + 1, h⟩ h0 h1]
        dsimp only
        rw [Pieces.scratch_C]
        refine (step_value m c ⟨n + 1, h⟩ _ r q).trans ?_
        dsimp only
        show (outsAt0 m c n _).2 (ix2 r q) + _ = _
        rw [ih, e1, e2, e3, partialDot_succ]
      · rw [outsAt0_B m c ⟨n + 1, h⟩ h0 h1]
        dsimp only
        rw [Pieces.scratch_B]
        refine (step_value m c ⟨n + 1, h⟩ _ r q).trans ?_
        dsimp only
        show (outsAt0 m c n _).2 (ix2 r q) + _ = _
        rw [ih, e1, e2, e3, partialDot_succ]

theorem out_row_lt (t : Fin cfg0.N) (r : Fin 2048) : 2048 * (t.val / 32) + r.val < 8192 := Blocks.row_lt t r
theorem out_col_lt (t : Fin cfg0.N) (q : Fin 1024) : 1024 * (t.val / 8 % 4) + q.val < 4096 := Blocks.col_lt t q

/-- THE OUTPUT BLOCK at a last step: the tile of the tiled result. -/
theorem out_at (c : Dev nD) (t : Fin cfg0.N) (h7 : t.val % 8 = 7) (r : Fin 2048) (q : Fin 1024) :
    (outsAt0 m c t.val t.isLt).1 (ix2 r q)
      = tiled (rows m c) (weights m c) (biasRow m c) (ix2 ⟨2048 * (t.val / 32) + r.val, out_row_lt t r⟩ ⟨1024 * (t.val / 8 % 4) + q.val, out_col_lt t q⟩) := by
  have hN : cfg0.N = 128 := N_0
  have ht := t.isLt
  rw [outsAt0_C m c t (by omega) h7]
  dsimp only
  rw [Pieces.out_C]
  refine (PayIdx.last_at _ (biasBlk m c t) r q).trans ?_
  have hb : biasBlk m c t (ix2 (0 : Fin 1) q) = biasRow m c (ix2 (0 : Fin 1) ⟨1024 * (t.val / 8 % 4) + q.val, out_col_lt t q⟩) :=
    Blocks.bias_blk m c t q
  rw [step_value m c t _ r q, hb, scratch_at m c (t.val - 1) (by omega) r q]
  have e1 : (t.val - 1) / 32 = t.val / 32 := by omega
  have e2 : (t.val - 1) / 8 % 4 = t.val / 8 % 4 := by omega
  have e3 : (t.val - 1) % 8 = 6 := by omega
  rw [e1, e2, e3, h7, ← partialDot_succ]
  rfl

end Cert.KernelIdeal.Accum

end
-- ==== Proof.Final.lean ====
/-
  The region's result array, and the program's result.

  The output window is written back at the last contraction step of each (row tile, column tile) pair only. What is
  written back there is the tile of the tiled result (module Accum), and the sixteen tiles cover the array: entry
  `(a, b)` lies in the tile of row tile `a / 2048` and column tile `b / 1024`, written back at point
  `32 (a / 2048) + 8 (b / 1024) + 7`. So the region's result array ends holding the tiled result, and the program's
  result is that array with its leading axis split in two.
-/
import proofs.«182247_j51264729645536_2_alg».proof.Proof.Accum
import Idealize.ShloMosaic.Lib.StableHlo.Run

noncomputable section

open scoped BigOperators

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.TableLinear Cert.KernelIdeal.Accum

variable (m : (ℓ : Loc nD τ sig) → Buf (Elt Ideal) ℓ) (ρ : Dev nD → PrngReg)

/-- The output window's block index at point `t`: the row tile and the column tile — decided over the grid. -/
theorem idx3 : ∀ t : Fin cfg0.N, win0_3.index t (0 : Fin 2) = t.val / 32 ∧ win0_3.index t (1 : Fin 2) = t.val / 8 % 4 :=
  (by decide +kernel : ∀ t : Fin grid0.N, win0_3.index t (0 : Fin 2) = t.val / 32 ∧ win0_3.index t (1 : Fin 2) = t.val / 8 % 4)

/-- The region's result array [8192, 4096]: the tiled result of the three arrays the region reads. -/
abbrev result2 (c : Dev nD) : SX.Idx → EReal := tiled (rows m c) (weights m c) (biasRow m c)

/-- What a write-back point writes back is its tile of the tiled result. -/
theorem flushed_eq (c : Dev nD) (t : Fin cfg0.N) (hf : (cfg0.win 3).flush t = true) :
    (dats m 0 c).flushed 3 t = ((cfg0.win 3).blk t).view.read (Elt Ideal) (result2 m c) := by
  have h7 : t.val % 8 = 7 := (flush0_3 t).mp hf
  have hi := idx3 t
  show (cfg0.win 3).cut (grid0.coords t) ((dats m 0 c).after 3 t) = _
  rw [after0_3]
  funext y
  rw [View.read_apply]
  have e := out_at m c t h7 ⟨(y 0).val, (y 0).isLt⟩ ⟨(y 1).val, (y 1).isLt⟩
  refine Eq.trans ?_ (e.trans ?_)
  · refine congrArg (outsAt0 m c t.val t.isLt).1 (funext fun a => Fin.ext ?_)
    match a with
    | ⟨0, _⟩ => rfl
    | ⟨1, _⟩ => rfl
  · refine congrArg (result2 m c) (funext fun a => Fin.ext ?_)
    match a with
    | ⟨0, _⟩ => show 2048 * (t.val / 32) + (y 0).val = win0_3.index t 0 * 2048 + 1 * (y 0).val; rw [hi.1]; omega
    | ⟨1, _⟩ => show 1024 * (t.val / 8 % 4) + (y 1).val = win0_3.index t 1 * 1024 + 1 * (y 1).val; rw [hi.2]; omega

/-- Every entry of the array is in the tile some write-back point writes. -/
theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 128 := N_0
  obtain ⟨n, hn⟩ : ∃ n : ℕ, n = 32 * ((i 0).val / 2048) + 8 * ((i 1).val / 1024) + 7 := ⟨_, rfl⟩
  have hlt : n < cfg0.N := by omega
  have hi := idx3 ⟨n, hlt⟩
  refine ⟨⟨n, hlt⟩, (flush0_3 _).mpr (by show n % 8 = 7; omega), ?_⟩
  show i ∈ ((View.whole main_v11).slice (win0_3.rect ⟨n, hlt⟩)).set
  rw [View.set_slice_whole, Rect.mem_set_unit]
  intro a
  match a with
  | ⟨0, _⟩ =>
    show win0_3.index ⟨n, hlt⟩ 0 * 2048 ≤ (i 0).val ∧ (i 0).val < win0_3.index ⟨n, hlt⟩ 0 * 2048 + 2048
    rw [hi.1]; show n / 32 * 2048 ≤ (i 0).val ∧ (i 0).val < n / 32 * 2048 + 2048; omega
  | ⟨1, _⟩ =>
    show win0_3.index ⟨n, hlt⟩ 1 * 1024 ≤ (i 1).val ∧ (i 1).val < win0_3.index ⟨n, hlt⟩ 1 * 1024 + 1024
    rw [hi.2]; show n / 8 % 4 * 1024 ≤ (i 1).val ∧ (i 1).val < n / 8 % 4 * 1024 + 1024; omega

/-- So the region's result array ends holding the tiled result. -/
theorem final (c : Dev nD) : (dats m 0 c).arrAt 3 cfg0.N = result2 m c :=
  (dats m 0 c).arrAt_eq_of_cover 3 (result2 m c) (flushed_eq m c) cover

end Cert.KernelIdeal.Final

end
-- ==== Proof.HostPre.lean ====
/-
  The arrays the tiled region starts from, as the host operations before it leave them.

  Before the region the program casts the table to the narrow format (the identity on the extended reals), looks up one
  table entry per weight index (an index below zero first moved up by the table's length), merges the two leading axes
  of the input rows, and lays the bias out as a one-row matrix. This module reads those three arrays as terms of the
  program's arguments, and the rows and the bias at an index.
-/
import proofs.«182247_j51264729645536_2_alg».proof.Proof.Gen.KernelIdeal.Frame
import proofs.«182247_j51264729645536_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostPre

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The weight indices with a negative index moved up by the table's length, as start indices [4096, 4096, 1]. -/
def startIdx (a2 : (⟨S4096x4096, .i32⟩ : BufTy).Contents (Elt Ideal)) : (⟨S4096x4096x1, .i32⟩ : BufTy).Contents (Elt Ideal) :=
  broadcastInDim S4096x4096x1 ![0, 1] bcast_S4096x4096_S4096x4096x1_0_1
    (select (cmpi .slt a2 (broadcastInDim S4096x4096 ![] bcast_S_S4096x4096 (constantI S_ 32 0#32)))
      (addi a2 (broadcastInDim S4096x4096 ![] bcast_S_S4096x4096 (constantI S_ 32 256#32))) a2)

/-- The weight matrix the region reads: the table looked up at the start indices. -/
theorem weights_eq (c : Dev nD) :
    (V m c main_v7 : S4096x4096.Idx → EReal)
      = Host.gather gather_S256_S4096x4096x1_S4096x4096_n_0_n_n_0_2_1
          (truncf (F := Ideal) .bf16 (m ((c : Thread nD τ).loc main_arg1)) bitsLt_bf16_f32 : FVec Ideal S256 .bf16)
          (startIdx (m ((c : Thread nD τ).loc main_arg2))) := by
  unfold startIdx
  show StableHlo.after hostOps0 (fun b => m (c, b)) (Proc.devRef .tc main_v7) = _
  after_results

/-- The rows the region reads, at row `2048 b + s`: row `(b, s)` of the input. -/
theorem rows_at (c : Dev nD) (b : Fin 4) (s : Fin 2048) (d : Fin 4096) :
    (V m c main_v9 : S8192x4096.Idx → EReal) (ix2 ⟨2048 * b.val + s.val, Cert.TableLinear.row_lt b s⟩ d)
      = m ((c : Thread nD τ).loc main_arg0) (ix3 b s d) := by
  -- the array is the narrowing cast (the identity on the extended reals) of the input with its two leading axes merged
  have e : (V m c main_v9 : S8192x4096.Idx → EReal)
      = truncf (F := Ideal) .bf16
          (shapeCast S8192x4096 (m ((c : Thread nD τ).loc main_arg0)) shapeCasts_S4x2048x4096_S8192x4096)
          bitsLt_bf16_f32 := by
    show StableHlo.after hostOps0 (fun b => m (c, b)) (Proc.devRef .tc main_v9) = _
    after_results
    rfl
  rw [e, truncf_apply]
  -- both indices sit at row-major position (2048 b + s) * 4096 + d
  exact shapeCast_apply _ _ _ _ (by
    show (S4x2048x4096.rowMajor (ix3 b s d)).val
      = (S8192x4096.rowMajor (ix2 ⟨2048 * b.val + s.val, Cert.TableLinear.row_lt b s⟩ d)).val
    rw [Shape.rowMajor_val_three, Shape.rowMajor_val_two]
    show (b.val * 2048 + s.val) * 4096 + d.val = (2048 * b.val + s.val) * 4096 + d.val
    omega)

/-- The bias row the region reads is the bias. -/
theorem bias_at (c : Dev nD) (o : Fin 4096) :
    (V m c main_v10 : S1x4096.Idx → EReal) (ix2 (0 : Fin 1) o) = m ((c : Thread nD τ).loc main_arg3) (ix1 o) := by
  -- the array is the bias with a leading unit axis added
  have e : (V m c main_v10 : S1x4096.Idx → EReal)
      = shapeCast S1x4096 (m ((c : Thread nD τ).loc main_arg3)) shapeCasts_S4096_S1x4096 := by
    show StableHlo.after hostOps0 (fun b => m (c, b)) (Proc.devRef .tc main_v10) = _
    after_results
    rfl
  rw [e]
  exact shapeCast_a_1a_apply _ _ (0 : Fin 1) o

end Cert.KernelIdeal.HostPre

end
-- ==== Proof.KernelValue.lean ====
/-
  The kernel program's run, read: its result is the layer.

  After the region one host operation splits the leading axis of the region's result array [8192, 4096] into
  [4, 2048, 4096]: entry `(b, s, o)` of the program's result is entry `(2048 b + s, o)` of the tiled result, which is
  the layer at `(b, s, o)` of the program's input and bias and the looked-up weights.
-/
import proofs.«182247_j51264729645536_2_alg».proof.Proof.Final
import proofs.«182247_j51264729645536_2_alg».proof.Proof.HostPre
import Idealize.ShloMosaic.Lib.StableHlo.Run

noncomputable section

open scoped BigOperators

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.TableLinear Cert.KernelIdeal.Accum Cert.KernelIdeal.Final

variable (m : (ℓ : Loc nD τ sig) → Buf (Elt Ideal) ℓ) (ρ : Dev nD → PrngReg)

/-- The program's result: the layer of its input, the looked-up weights and its bias. -/
abbrev result (c : Dev nD) : S4x2048x4096.Idx → EReal :=
  layer (m ((c : Thread nD τ).loc main_arg0)) (weights m c) (m ((c : Thread nD τ).loc main_arg3))

/-- The tiled result with its leading axis split is the layer. -/
theorem split_eq (c : Dev nD) :
    shapeCast S4x2048x4096 (result2 m c) shapeCasts_S8192x4096_S4x2048x4096 = result m c := by
  funext i
  obtain ⟨b, s, o, rfl⟩ : ∃ (b : Fin 4) (s : Fin 2048) (o : Fin 4096), i = ix3 b s o := ⟨i 0, i 1, i 2, eq_ix3 i⟩
  rw [shapeCast_apply (result2 m c) shapeCasts_S8192x4096_S4x2048x4096 (ix3 b s o) (ix2 ⟨2048 * b.val + s.val, row_lt b s⟩ o) (by
    show (S8192x4096.rowMajor (ix2 ⟨2048 * b.val + s.val, row_lt b s⟩ o)).val = (S4x2048x4096.rowMajor (ix3 b s o)).val
    rw [Shape.rowMajor_val_three, Shape.rowMajor_val_two]
    show (2048 * b.val + s.val) * 4096 + o.val = (b.val * 2048 + s.val) * 4096 + o.val
    omega)]
  exact tiled_eq_layer _ _ _ _ _ (HostPre.rows_at m c) (HostPre.bias_at m c) b s o

/-- What the program's result buffer holds after the host operation that follows the region. -/
theorem tail_eq (c : Dev nD) :
    Pipeline.afterTail₀ cfgs (dats m) 0 (V0 m) [hostOps1] c main_v12 = result m c := by
  unfold Pipeline.afterTail₀
  show StableHlo.after hostOps1 _ (Proc.devRef .tc main_v12) = _
  after_results
  have hw : Pipeline.withArrays (cfgs 0).spec c (V0 m c) (fun w => (dats m 0 c).arrAt w (cfgs 0).N) (Proc.devRef .tc main_v11)
      = result2 m c :=
    (Pipeline.withArrays_arr spec0 launch0.win.arr_inj c _ _ 3).trans (final m c)
  rw [hw]
  exact split_eq m c

/-- THE RUN, READ: every weakly fair execution of the kernel program ends with its result at the layer and its
    arguments unchanged. -/
theorem run : θ_run defs (onTc (τ := τ) (main (F := Ideal))) ⟨m, fun _ => 0, ρ⟩ fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefSide.lean ====
/-
  The reference program's result is the layer.

  The reference looks the weight matrix up in the table, contracts the input's last axis with the weight matrix's last
  axis, and adds the bias broadcast over batch and position. Read at `(b, s, o)` that is
  `(Σ_d x[b, s, d] · w[o, d]) + bias[o]` with `w` the looked-up matrix, kept here as one unopened array.
-/
import proofs.«182247_j51264729645536_2_alg».proof.Proof.Gen.ReferenceIdeal.Read
import proofs.«182247_j51264729645536_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

theorem result_is_layer (x0 : (⟨S4x2048x4096, .f32⟩ : BufTy).Contents (Elt Ideal)) (x1 : (⟨S256, .f32⟩ : BufTy).Contents (Elt Ideal))
    (x2 : (⟨S4096x4096, .i32⟩ : BufTy).Contents (Elt Ideal)) (x3 : (⟨S4096, .f32⟩ : BufTy).Contents (Elt Ideal)) :
    val_main_v10 (F := Ideal) x0 x1 x2 x3 = Cert.TableLinear.layer x0 (val_main_v6 (F := Ideal) x1 x2) x3 := by
  funext i
  obtain ⟨b, s, o, rfl⟩ : ∃ (b : Fin 4) (s : Fin 2048) (o : Fin 4096), i = ix3 b s o := ⟨i 0, i 1, i 2, eq_ix3 i⟩
  have el : ∀ k : Fin 4096, lidx_main_v7 (ix3 b s o) k = ix3 b s k := fun k => funext fun a => Fin.ext (by
    match a with
    | ⟨0, _⟩ => rfl
    | ⟨1, _⟩ => rfl
    | ⟨2, _⟩ => rfl)
  have er : ∀ k : Fin 4096, ridx_main_v7 (ix3 b s o) k = ix2 o k := fun k => funext fun a => Fin.ext (by
    match a with
    | ⟨0, _⟩ => rfl
    | ⟨1, _⟩ => rfl)
  have eb : idx_main_v8 (idx_main_v9 (ix3 b s o)) = ix1 o := funext fun a => Fin.ext (by
    match a with
    | ⟨0, _⟩ => rfl)
  rw [val_main_v10_apply, val_main_v7_apply, val_main_v9_apply, val_main_v8_apply, eb]
  unfold Cert.TableLinear.layer
  simp only [el, er]
  rfl

end Cert.ReferenceIdeal.RefValue

end
-- ==== Proof.Weights.lean ====
/-
  Both programs look the weight matrix up the same way.

  The kernel's program narrows the table's format first, which is the identity on the extended reals; the index
  arithmetic before the lookup (an index below zero moved up by the table's length) and the lookup itself are the same
  operations in both programs. So from the same table and the same indices both get the same matrix.
-/
import proofs.«182247_j51264729645536_2_alg».proof.Proof.HostPre
import proofs.«182247_j51264729645536_2_alg».proof.Proof.Gen.ReferenceIdeal.Read

noncomputable section

namespace Cert.Proof.Weights

open Idealize.ShloMosaic Idealize.ShloMosaic.TcCoe Idealize.SL.Sem Idealize.ShloMosaic.ValueIdx

/-- The lookup of the narrowed table at the kernel program's start indices is the reference's lookup. -/
theorem lookup_eq (x1 : (⟨Cert.ReferenceIdeal.S256, .f32⟩ : BufTy).Contents (Elt Ideal))
    (x2 : (⟨Cert.ReferenceIdeal.S4096x4096, .i32⟩ : BufTy).Contents (Elt Ideal)) :
    Host.gather Cert.KernelIdeal.gather_S256_S4096x4096x1_S4096x4096_n_0_n_n_0_2_1
        (truncf (F := Ideal) .bf16 x1 Cert.KernelIdeal.Facts₀.bitsLt_bf16_f32 : FVec Ideal Cert.KernelIdeal.S256 .bf16)
        (Cert.KernelIdeal.HostPre.startIdx x2)
      = Cert.ReferenceIdeal.Read.val_main_v6 (F := Ideal) x1 x2 := by
  unfold Cert.KernelIdeal.HostPre.startIdx Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0
  rfl

end Cert.Proof.Weights

end
-- ==== Proof.lean ====
/-
  A linear layer with weights looked up in a 256-entry table: the tiled kernel against the plain reference.

  Both programs build the weight matrix `w[o, d] = table[idx[o, d]]` by the same lookup (an index below zero first
  moved up by the table's length; the kernel's program first narrows the table's format, the identity on the extended
  reals). The reference computes `y[b, s, o] = (Σ_d x[b, s, d] · w[o, d]) + bias[o]` in one contraction. The kernel
  merges `(b, s)` into 8192 rows and walks a 4 × 4 × 8 grid of (row tile, column tile, contraction step): a scratch tile
  starts from zero at step 0, gains the product of a [2048, 512] block of rows with a [1024, 512] block of weights at
  every step, and at step 7 the scratch plus the bias row is written to the output tile. On the extended reals the
  chain `((0 + P₀) + P₁) + … + P₇` is the sum over the whole contraction range (addition is associative and commutative
  and `0` is neutral there; no finiteness is used), so both programs end with the same array.

  Modules: Spec (the blocked-sum law and the two spellings of the result), Pieces (what each case of the body leaves,
  as values), PayIdx (the body's arithmetic at an entry), Blocks (the windows' blocks at an entry), HostPre (the arrays
  the region starts from), Accum (the running sum after every grid point, by induction on the point), Final (the
  region's result array), KernelValue (the kernel program's run, read), RefSide (the reference's result is the layer),
  Weights (both lookups are one). The frames of the two kernel programs are the generated ones; the reference's frame is
  its generated run with the result dropped. The ideal pass rewrote nothing, so there is nothing to preserve.
-/
import proofs.«182247_j51264729645536_2_alg».proof.Defs
import proofs.«182247_j51264729645536_2_alg».proof.Proof.Gen.Kernel.Frame
import proofs.«182247_j51264729645536_2_alg».proof.Proof.Gen.KernelIdeal.Frame
import proofs.«182247_j51264729645536_2_alg».proof.Proof.Gen.ReferenceIdeal.Run
import proofs.«182247_j51264729645536_2_alg».proof.Proof.Gen.Pre_finite_inputs
import proofs.«182247_j51264729645536_2_alg».proof.Proof.KernelValue
import proofs.«182247_j51264729645536_2_alg».proof.Proof.RefSide
import proofs.«182247_j51264729645536_2_alg».proof.Proof.Weights

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the layer of the same input, weights and bias. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_is_layer,
    (hagree c).1, (hagree c).2.1, (hagree c).2.2.1, (hagree c).2.2.2]
  show Cert.TableLinear.layer _ _ _ = Cert.TableLinear.layer _ (Cert.KernelIdeal.Accum.weights m c) _
  rw [show Cert.KernelIdeal.Accum.weights m c = _ from Cert.KernelIdeal.HostPre.weights_eq m c, Cert.Proof.Weights.lookup_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
